-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S16384x2048 .f32) (main_arg1 : FVec F S64x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S16384x2048 : Shape := ⟨2, ![16384, 2048]⟩
abbrev S64x2048 : Shape := ⟨2, ![64, 2048]⟩
abbrev S16384x64 : Shape := ⟨2, ![16384, 64]⟩
abbrev S512x2048 : Shape := ⟨2, ![512, 2048]⟩
abbrev S512x64 : Shape := ⟨2, ![512, 64]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S16384x64, .f32⟩
  | .local _ .vmem, ⟨0, _⟩ => ⟨S512x2048, .f32⟩
  | .local _ .vmem, ⟨1, _⟩ => ⟨S512x2048, .f32⟩
  | .local _ .vmem, ⟨2, _⟩ => ⟨S64x2048, .f32⟩
  | .local _ .vmem, ⟨3, _⟩ => ⟨S512x64, .f32⟩
  | .local _ .vmem, ⟨4, _⟩ => ⟨S512x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32 : BitVec 32 := 16#32
  let v10 : BitVec 32 := Scalar.muli v9 c16_i32
  let c2_i32_3 : BitVec 32 := 2#32
  let v11 : BitVec 32 := Scalar.divsi arg0 c2_i32_3
  let c0_i32_4 : BitVec 32 := 0#32
  let v12 : BitVec 1 := Scalar.cmpi .sgt arg0 c0_i32_4
  let v13 : BitVec 32 := Scalar.extui v12
  let c0_i32_5 : BitVec 32 := 0#32
  let v14 : BitVec 1 := Scalar.cmpi .slt arg0 c0_i32_5
  let v15 : BitVec 32 := Scalar.extui v14
  let v16 : BitVec 32 := Scalar.subi v13 v15
  let c0_i32_6 : BitVec 32 := 0#32
  let v17 : BitVec 1 := Scalar.cmpi .sgt c2_i32_3 c0_i32_6
  let v18 : BitVec 32 := Scalar.extui v17
  let c0_i32_7 : BitVec 32 := 0#32
  let v19 : BitVec 1 := Scalar.cmpi .slt c2_i32_3 c0_i32_7
  let v20 : BitVec 32 := Scalar.extui v19
  let v21 : BitVec 32 := Scalar.subi v18 v20
  let v22 : BitVec 1 := Scalar.cmpi .ne v16 v21
  let v23 : BitVec 32 := Scalar.remsi arg0 c2_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c0_i32_10 : BitVec 32 := 0#32
  let c0_i32_11 : BitVec 32 := 0#32
  ![v28.toNat, c0_i32_10.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  inb_S512x64_S512x64_0_0 : ∀ a, (![0, 0] : Fin 2 → Nat) a + S512x64.size a ≤ S512x64.size a
  h_S512x64 : 0 < S512x64.numel
  dot_S512x2048_S64x2048_S512x64_1_1_0_0_n_n_wf : DotDims.WF S512x2048 S64x2048 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S16384x64.size a
  hwx0_2 : ∀ i : grid0.Coords, EltTy.bits .f32 = 32 ∨ (Rect.block (s := S16384x64) S512x64.size (cc0_transform_2 i) (hinb0_2 i)).WholeWords (EltTy.packing .f32)

variable [Facts₀]

def dot_S512x2048_S64x2048_S512x64_1_1_0_0_n_n : DotDims S512x2048 S64x2048 S512x64 where
  lhsContracting := [1]
  rhsContracting := [1]
  lhsNonContracting := [0]
  rhsNonContracting := [0]
  lhsBatch := []
  rhsBatch := []
  wf := dot_S512x2048_S64x2048_S512x64_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S2048x64 : Shape := ⟨2, ![2048, 64]⟩
abbrev S16384x64 : Shape := ⟨2, ![16384, 64]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2048x64, .f32⟩
  | .hbm, ⟨3, _⟩ => ⟨S16384x64, .f32⟩
  | .hbm, ⟨4, _⟩ => ⟨S_, .f32⟩
  | .hbm, ⟨5, _⟩ => ⟨S16384x64, .f32⟩
  | .hbm, ⟨6, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S_S16384x64 : S_.BroadcastsInDim S16384x64 (![] : Fin 0 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.RouterSpec.lean ====
/-
  The router's result as ONE function of its two argument arrays, index by index, on the extended reals:
  entry (r, e) of relu(x · Wᵀ) is  max (∑ₖ x[r, k] · W[e, k]) 0,  the sum over the 2048 hidden coordinates.
  The zero is kept as the f32 word 0x00000000 that both programs splat, so it is never evaluated.
-/
import Idealize.ShloMosaic.PureOps.Ideal
import Idealize.ShloMosaic.Lib.ValueIdx

noncomputable section

namespace Cert.Router

open Idealize.ShloMosaic Idealize.ShloMosaic.ValueIdx

/-- relu(x · Wᵀ) at the entry (r, e): the inner product of row r of x with row e of W, cut below at zero. -/
def reluLogits (x : FVec Ideal ⟨2, ![16384, 2048]⟩ .f32) (w : FVec Ideal ⟨2, ![64, 2048]⟩ .f32) :
    FVec Ideal ⟨2, ![16384, 64]⟩ .f32 :=
  fun i => max (∑ k : Fin 2048, x (ix2 (i 0) k) * w (ix2 (i 1) k)) (Ideal.ofBits .f32 0x00000000#32)

/-- The same entry with its two coordinates named. -/
theorem reluLogits_apply (x : FVec Ideal ⟨2, ![16384, 2048]⟩ .f32) (w : FVec Ideal ⟨2, ![64, 2048]⟩ .f32)
    (r : Fin 16384) (e : Fin 64) :
    reluLogits x w (ix2 r e) = max (∑ k : Fin 2048, x (ix2 r k) * w (ix2 e k)) (Ideal.ofBits .f32 0x00000000#32) := rfl

end Cert.Router

end
-- ==== Proof.RefValue.lean ====
/-
  The reference's result is the router function: jnp's  relu(x · Wᵀ)  transposes W to [2048, 64], contracts
  x's hidden axis with the transpose's first axis, and takes the maximum with a splat zero. Read at an entry (r, e)
  the transpose puts W[e, k] at (k, e), so the contraction is  ∑ₖ x[r, k] · W[e, k],  the very sum of the specification.
-/
import proofs.«178407_g72438918414737_cont_9to1c4b_115_26_alg».proof.Proof.Gen.ReferenceIdeal.Read
import proofs.«178407_g72438918414737_cont_9to1c4b_115_26_alg».proof.Proof.RouterSpec

noncomputable section

namespace Cert.ReferenceIdeal.RefValue

open Cert.ReferenceIdeal Cert.ReferenceIdeal.Read Idealize.ShloMosaic Idealize.ShloMosaic.ValueIdx

/-- The left operand of the contraction at entry i and hidden coordinate k is x[i₀, k]. -/
theorem lidx_eq (i : S16384x64.Idx) (k : Fin 2048) : lidx_main_v1 i k = ix2 (i 0) k :=
  funext fun a => Fin.ext (by match a with | ⟨0, _⟩ => rfl | ⟨1, _⟩ => rfl)

/-- The right operand, read back through the transpose, is W[i₁, k]. -/
theorem ridx_eq (i : S16384x64.Idx) (k : Fin 2048) : idx_main_v0 (ridx_main_v1 i k) = ix2 (i 1) k :=
  funext fun a => Fin.ext (by match a with | ⟨0, _⟩ => rfl | ⟨1, _⟩ => rfl)

/-- The reference's last stage, as a function of the two arguments, is the router function. -/
theorem ref_eq (x0 : FVec Ideal S16384x2048 .f32) (x1 : FVec Ideal S64x2048 .f32) :
    val_main_v2 (F := Ideal) x0 x1 = Cert.Router.reluLogits x0 x1 := by
  funext i
  rw [val_main_v2_apply, val_main_v1_apply, val_main_call0_v0_apply, val_main_call0_cst_apply]
  simp only [val_main_v0_apply, lidx_eq, ridx_eq]
  rfl

end Cert.ReferenceIdeal.RefValue

end
-- ==== Proof.KernelPayload.lean ====
/-
  What the kernel body stores, read at an entry. The body rounds its two loaded blocks to bf16 (the identity on the
  extended reals), multiplies the [512, 2048] block of x with the [64, 2048] block of W contracting both hidden axes
  into a zero accumulator, and takes the maximum with a splat zero. At the entry (p, q) of the [512, 64] block this is
  max (∑ₖ xblk[p, k] · wblk[q, k]) 0.
-/
import proofs.«178407_g72438918414737_cont_9to1c4b_115_26_alg».proof.Proof.Gen.KernelIdeal.Skeleton
import proofs.«178407_g72438918414737_cont_9to1c4b_115_26_alg».proof.Proof.RouterSpec
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The left operand's row is the output row: axis 0 of the left operand is not contracted. -/
theorem lhs_row (j : S512x64.Idx) (q : (dot_S512x2048_S64x2048_S512x64_1_1_0_0_n_n).contr.Idx) :
    ((dot_S512x2048_S64x2048_S512x64_1_1_0_0_n_n).lhsIdx j q 0).val = (j 0).val := by
  unfold DotDims.lhsIdx
  rw [dif_neg (show ¬(0 : Fin S512x2048.rank) ∈ (dot_S512x2048_S64x2048_S512x64_1_1_0_0_n_n).lhsBatch by decide),
    dif_pos (show (0 : Fin S512x2048.rank) ∈ (dot_S512x2048_S64x2048_S512x64_1_1_0_0_n_n).lhsNonContracting by decide)]
  rfl

/-- The left operand's column is the contraction coordinate. -/
theorem lhs_col (j : S512x64.Idx) (q : (dot_S512x2048_S64x2048_S512x64_1_1_0_0_n_n).contr.Idx) :
    ((dot_S512x2048_S64x2048_S512x64_1_1_0_0_n_n).lhsIdx j q 1).val = (q ⟨0, by decide⟩).val :=
  (dot_S512x2048_S64x2048_S512x64_1_1_0_0_n_n).lhsIdx_val_of_single rfl j q

/-- The right operand's row is the output column: axis 0 of the right operand is not contracted. -/
theorem rhs_row (j : S512x64.Idx) (q : (dot_S512x2048_S64x2048_S512x64_1_1_0_0_n_n).contr.Idx) :
    ((dot_S512x2048_S64x2048_S512x64_1_1_0_0_n_n).rhsIdx j q 0).val = (j 1).val := by
  unfold DotDims.rhsIdx
  rw [dif_neg (show ¬(0 : Fin S64x2048.rank) ∈ (dot_S512x2048_S64x2048_S512x64_1_1_0_0_n_n).rhsBatch by decide),
    dif_pos (show (0 : Fin S64x2048.rank) ∈ (dot_S512x2048_S64x2048_S512x64_1_1_0_0_n_n).rhsNonContracting by decide)]
  rfl

/-- The right operand's column is the contraction coordinate. -/
theorem rhs_col (j : S512x64.Idx) (q : (dot_S512x2048_S64x2048_S512x64_1_1_0_0_n_n).contr.Idx) :
    ((dot_S512x2048_S64x2048_S512x64_1_1_0_0_n_n).rhsIdx j q 1).val = (q ⟨0, by decide⟩).val :=
  (dot_S512x2048_S64x2048_S512x64_1_1_0_0_n_n).rhsIdx_val_of_single rfl j q

/-- The product of the two blocks into a zero accumulator, at the entry (p, q), is the sum over the hidden coordinate
    of the products of row p of the first block with row q of the second. -/
theorem matmul_entry (a : FVec Ideal S512x2048 .bf16) (b : FVec Ideal S64x2048 .bf16) (p : Fin 512) (q : Fin 64) :
    matmul (F := Ideal) dot_S512x2048_S64x2048_S512x64_1_1_0_0_n_n none a b (constant S512x64 .f32 0x00000000#32) (ix2 p q)
      = ∑ k : Fin 2048, a (ix2 p k) * b (ix2 q k) := by
  simp only [matmul]
  rw [Ideal.matmul_constant_zero_apply,
    ← Equiv.sum_comp (contrEquiv1 dot_S512x2048_S64x2048_S512x64_1_1_0_0_n_n 2048 rfl rfl).symm]
  refine Finset.sum_congr rfl fun k _ => ?_
  have hk := contrEquiv1_symm_val dot_S512x2048_S64x2048_S512x64_1_1_0_0_n_n 2048 rfl rfl k
  have el : (dot_S512x2048_S64x2048_S512x64_1_1_0_0_n_n).lhsIdx (ix2 p q)
      ((contrEquiv1 dot_S512x2048_S64x2048_S512x64_1_1_0_0_n_n 2048 rfl rfl).symm k) = ix2 p k :=
    funext fun d => Fin.ext (by
      match d with
      | ⟨0, _⟩ => exact lhs_row _ _
      | ⟨1, _⟩ => exact (lhs_col _ _).trans hk)
  have er : (dot_S512x2048_S64x2048_S512x64_1_1_0_0_n_n).rhsIdx (ix2 p q)
      ((contrEquiv1 dot_S512x2048_S64x2048_S512x64_1_1_0_0_n_n 2048 rfl rfl).symm k) = ix2 q k :=
    funext fun d => Fin.ext (by
      match d with
      | ⟨0, _⟩ => exact rhs_row _ _
      | ⟨1, _⟩ => exact (rhs_col _ _).trans hk)
  rw [el, er]

/-- The stored value at the entry (p, q) of the block. -/
theorem pay_entry (x0 : Vec Ideal S512x2048 .f32) (x1 : Vec Ideal S64x2048 .f32) (p : Fin 512) (q : Fin 64) :
    k0_pay1 (F := Ideal) x0 x1 (ix2 p q)
      = max (∑ k : Fin 2048, x0 (ix2 p k) * x1 (ix2 q k)) (Ideal.ofBits .f32 0x00000000#32) := by
  unfold k0_pay1
  refine (maximumf_apply _ _ (ix2 p q)).trans ?_
  refine congrArg₂ max ?_ rfl
  exact matmul_entry _ _ p q

/-- The stored value at an entry j of the block is the router function at an entry i of the whole arrays, whenever
    row j₀ of the first block is row i₀ of x and row j₁ of the second block is row i₁ of W. -/
theorem pay_is_router (x0 : Vec Ideal S512x2048 .f32) (x1 : Vec Ideal S64x2048 .f32)
    (A0 : FVec Ideal S16384x2048 .f32) (A1 : FVec Ideal S64x2048 .f32) (j : S512x64.Idx) (i : S16384x64.Idx)
    (h0 : ∀ k : Fin 2048, x0 (ix2 (j 0) k) = A0 (ix2 (i 0) k))
    (h1 : ∀ k : Fin 2048, x1 (ix2 (j 1) k) = A1 (ix2 (i 1) k)) :
    k0_pay1 (F := Ideal) x0 x1 j = Cert.Router.reluLogits A0 A1 i := by
  obtain ⟨p, q, rfl⟩ : ∃ (p : Fin 512) (q : Fin 64), j = ix2 p q := ⟨j 0, j 1, eq_ix2 j⟩
  refine (pay_entry x0 x1 p q).trans ?_
  unfold Cert.Router.reluLogits
  refine congrArg₂ max (Finset.sum_congr rfl fun k _ => ?_) rfl
  exact congrArg₂ (· * ·) (h0 k) (h1 k)

end Cert.KernelIdeal.Payload

end
-- ==== Proof.KernelArray.lean ====
/-
  From blocks to the array. The grid has 32 points; point t reads the row block  b(t) = (t mod 2)·16 + t div 2  of x
  (512 rows), the whole of W, and writes the row block b(t) of the result. Because the input and the output move
  together, what point t writes back is block b(t) of the router function of the whole arrays; and b is onto the 32
  row blocks, so the blocks cover the result array, which therefore ends as the router function everywhere.
-/
import proofs.«178407_g72438918414737_cont_9to1c4b_115_26_alg».proof.Proof.Gen.KernelIdeal.Value
import proofs.«178407_g72438918414737_cont_9to1c4b_115_26_alg».proof.Proof.KernelPayload
import Idealize.ShloMosaic.Lib.Pipeline.Value

noncomputable section

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps over the 32 points: the block of x and the block of the result sit at the same row block,
    which is at most 31; every column block index is 0; W's one block is at (0, 0). -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 31
    ∧ win0_2.index t (1 : Fin 2) = 0 :=
  (by decide +kernel : ∀ t : Fin grid0.N, _)

/-- Every one of the 32 row blocks of the result is some point's. -/
theorem row_block_onto : ∀ q : Fin 32, ∃ t : Fin cfg0.N, win0_2.index t = ![q.val, 0] :=
  (by decide +kernel : ∀ q : Fin 32, ∃ t : Fin grid0.N, win0_2.index t = ![q.val, 0])

/-- WHAT POINT t WRITES BACK is block t of the router function of the argument arrays. -/
theorem flushed_router (c : Dev nD) (t : Fin cfg0.N) :
    (dats m 0 c).flushed 2 t
      = ((cfg0.win 2).blk t).view.read (Elt Ideal) (Cert.Router.reluLogits (V m c main_arg0) (V m c main_arg1)) := by
  rw [Cert.KernelIdeal.Value.flushed2]
  unfold out0_2
  rw [View.canon_unit_zero zero_offsets]
  simp only [View.ld_unit_zero (S := S512x2048) zero_offsets, View.ld_unit_zero (S := S64x2048) zero_offsets]
  obtain ⟨e0, e1, e2, e3, e4, e5⟩ := block_indices t
  funext j
  show k0_pay1 (F := Ideal) (iblk m c 0 t) (iblk m c 1 t) j
    = Cert.Router.reluLogits (V m c main_arg0) (V m c main_arg1) (((cfg0.win 2).blk t).view.emb j)
  refine Cert.KernelIdeal.Payload.pay_is_router _ _ _ _ j _ (fun k => ?_) (fun k => ?_)
  · show V m c main_arg0 (((cfg0.win 0).blk t).view.emb (ix2 (j 0) k)) = V m c main_arg0 _
    refine congrArg (V m c main_arg0) (funext fun a => Fin.ext ?_)
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 2048 + 1 * k.val = k.val
      omega
  · show V m c main_arg1 (((cfg0.win 1).blk t).view.emb (ix2 (j 1) k)) = V m c main_arg1 _
    refine congrArg (V m c main_arg1) (funext fun a => Fin.ext ?_)
    match a with
    | ⟨0, _⟩ =>
      show win0_1.index t (0 : Fin 2) * 64 + 1 * (j 1).val = win0_2.index t (1 : Fin 2) * 64 + 1 * (j 1).val
      omega
    | ⟨1, _⟩ =>
      show win0_1.index t (1 : Fin 2) * 2048 + 1 * k.val = k.val
      omega

/-- An index of the result array is in point t's block iff each coordinate is in the block's range on its axis. -/
theorem mem_block (t : Fin cfg0.N) (i : S16384x64.Idx) :
    i ∈ ((cfg0.win 2).blk t).view.set ↔ ∀ a : Fin 2, win0_2.index t a * S512x64.size a ≤ (i a).val
      ∧ (i a).val < win0_2.index t a * S512x64.size a + S512x64.size a := by
  show i ∈ ((View.whole main_v0).slice (win0_2.rect t)).set ↔ _
  rw [View.set_slice_whole, Rect.mem_set_unit]
  exact Iff.rfl

/-- Every index of the result array lies in some point's block: row r lies in row block r div 512. -/
theorem covered (i : S16384x64.Idx) :
    ∃ t : Fin cfg0.N, (cfg0.win 2).flush t = true ∧ i ∈ ((cfg0.win 2).blk t).view.set := by
  have hi0 : (i 0).val < 16384 := (i 0).isLt
  have hi1 : (i 1).val < 64 := (i 1).isLt
  obtain ⟨t, ht⟩ := row_block_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 64 ≤ (i 1).val ∧ (i 1).val < win0_2.index t (1 : Fin 2) * 64 + 64
    omega

/-- THE RESULT ARRAY after the run is the router function of the argument arrays. -/
theorem final_router (c : Dev nD) :
    (dats m 0 c).arrAt 2 cfg0.N
      = Cert.Router.reluLogits (m ((c : Thread nD τ).loc main_arg0)) (m ((c : Thread nD τ).loc main_arg1)) :=
  (dats m 0 c).arrAt_eq_of_cover 2 (Cert.Router.reluLogits (V m c main_arg0) (V m c main_arg1))
    (fun t _ => flushed_router m c t) covered

/-- The kernel's run, read: the result array at the router function of the arguments, the arguments unchanged. -/
theorem run : θ_run defs (onTc (τ := τ) (main (F := Ideal))) ⟨m, fun _ => 0, ρ⟩ fun r => ∀ c : Dev nD,
      r.2.mem ((c : Thread nD τ).loc main_v0)
        = Cert.Router.reluLogits (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_router m c), (h c).2⟩)
    (Cert.KernelIdeal.Value.run_blocks m ρ)

end Cert.KernelIdeal.Array

end
-- ==== Proof.lean ====
/-
  The MoE router  relu(x · Wᵀ),  x : f32[16384, 2048], W : f32[64, 2048], as a blocked kernel against jnp.

  On the extended reals both programs compute, at every entry (r, e),  max (∑ₖ x[r, k] · W[e, k]) 0 :
  * the kernel walks 32 grid points; point t takes the 512-row block  (t mod 2)·16 + t div 2  of x, rounds it and W
    to bf16 (the identity on the extended reals), multiplies the two blocks contracting the hidden axis into a zero
    accumulator, takes the maximum with zero and writes the same row block of the result; the row blocks are visited
    in an interleaved order, but input and output move together and every row block is visited, so the result array is
    the function above everywhere (Proof/KernelPayload.lean, Proof/KernelArray.lean);
  * the reference transposes W, contracts x's hidden axis with the transpose's first axis and takes the maximum with
    zero, which read at an entry is the same sum (Proof/RefValue.lean).
  The two sums are literally the same sum over the 2048 hidden coordinates, so no law of the extended reals beyond
  reading both sides at an index is needed, and the finiteness of the inputs is never used. The idealization rewrote
  nothing, so there is nothing to preserve; the three frames are the programs' runs with the values forgotten.
-/
import proofs.«178407_g72438918414737_cont_9to1c4b_115_26_alg».proof.Defs
import proofs.«178407_g72438918414737_cont_9to1c4b_115_26_alg».proof.Proof.Gen.Kernel
import proofs.«178407_g72438918414737_cont_9to1c4b_115_26_alg».proof.Proof.Gen.Kernel.Frame
import proofs.«178407_g72438918414737_cont_9to1c4b_115_26_alg».proof.Proof.Gen.KernelIdeal
import proofs.«178407_g72438918414737_cont_9to1c4b_115_26_alg».proof.Proof.Gen.KernelIdeal.Frame
import proofs.«178407_g72438918414737_cont_9to1c4b_115_26_alg».proof.Proof.Gen.KernelIdeal.Value
import proofs.«178407_g72438918414737_cont_9to1c4b_115_26_alg».proof.Proof.Gen.ReferenceIdeal
import proofs.«178407_g72438918414737_cont_9to1c4b_115_26_alg».proof.Proof.Gen.ReferenceIdeal.Run
import proofs.«178407_g72438918414737_cont_9to1c4b_115_26_alg».proof.Proof.Gen.ReferenceIdeal.Read
import proofs.«178407_g72438918414737_cont_9to1c4b_115_26_alg».proof.Proof.Gen.Pre_finite_inputs
import proofs.«178407_g72438918414737_cont_9to1c4b_115_26_alg».proof.Proof.RouterSpec
import proofs.«178407_g72438918414737_cont_9to1c4b_115_26_alg».proof.Proof.RefValue
import proofs.«178407_g72438918414737_cont_9to1c4b_115_26_alg».proof.Proof.KernelArray
import Idealize.ShloMosaic.Adequacy
import Idealize.ShloMosaic.Init

noncomputable section

namespace Cert.Proof

open Idealize.ShloMosaic Idealize.SL.Sem

/-- The word-level kernel terminates without a fault and leaves x and W as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result forgotten, leaves x and W as they were. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are both  max (∑ₖ x[r, k] · W[e, k]) 0  of
    arguments that agree. -/
theorem algebraic : Cert.algebraic_KernelIdeal_ReferenceIdeal := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
